-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_12544" .f32 0x38A72F05#32 ((1 / 12544 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x112x112 : Shape := ⟨4, ![64, 128, 112, 112]⟩
abbrev S8x128 : Shape := ⟨2, ![8, 128]⟩
abbrev S8 : Shape := ⟨1, ![8]⟩
abbrev S128x8 : Shape := ⟨2, ![128, 8]⟩
abbrev S128 : Shape := ⟨1, ![128]⟩
abbrev S_ : Shape := ⟨0, ![]⟩

class Facts : Prop where
  bcast_S_S64x128x112x112 : S_.BroadcastsInDim S64x128x112x112 (![] : Fin 0 → Fin S64x128x112x112.rank)
  reducesTo_S64x128x112x112_S_d0_1_2_3 : S64x128x112x112.ReducesTo [0, 1, 2, 3] S_
  h_S_ : 0 < S_.numel
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S128x8 : S_.BroadcastsInDim S128x8 (![] : Fin 0 → Fin S128x8.rank)
  reducesTo_S128x8_S_d0_1 : S128x8.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S64x128x112x112 .f32) (main_arg1 : FVec F S8x128 .f32) (main_arg2 : FVec F S8 .f32) (main_arg3 : FVec F S128x8 .f32) (main_arg4 : FVec F S128 .f32) : IVec S_ 1 :=
  let main_v0 : FVec F S64x128x112x112 .f32 := Host.absf main_arg0
  let main_cst : FVec F S_ .f32 := constant S_ .f32 0x7F800000#32
  let main_v1 : FVec F S64x128x112x112 .f32 := broadcastInDim S64x128x112x112 ![] bcast_S_S64x128x112x112 main_cst
  let main_v2 : IVec S64x128x112x112 1 := cmpf .olt main_v0 main_v1
  let main_c : IVec S_ 1 := constantI S_ 1 1#1
  let main_v3 : IVec S_ 1 := (fun x v => Host.reduce IntOp.andi x v reducesTo_S64x128x112x112_S_d0_1_2_3 h_S_) main_v2 main_c
  let main_v4 : FVec F S8x128 .f32 := Host.absf main_arg1
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S128x8 .f32 := Host.absf main_arg3
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg4 main_v13 main_v16
-- ==== Kernel.lean ====
abbrev S64x128x112x112 : Shape := ⟨4, ![64, 128, 112, 112]⟩
abbrev S8x128 : Shape := ⟨2, ![8, 128]⟩
abbrev S8 : Shape := ⟨1, ![8]⟩
abbrev S128x8 : Shape := ⟨2, ![128, 8]⟩
abbrev S128 : Shape := ⟨1, ![128]⟩
abbrev S64x112x112x128 : Shape := ⟨4, ![64, 112, 112, 128]⟩
abbrev S1x8 : Shape := ⟨2, ![1, 8]⟩
abbrev S1x128 : Shape := ⟨2, ![1, 128]⟩
abbrev S1x112x112x128 : Shape := ⟨4, ![1, 112, 112, 128]⟩
abbrev S112x112x128 : Shape := ⟨3, ![112, 112, 128]⟩
abbrev S112x128 : Shape := ⟨2, ![112, 128]⟩
abbrev S1x1x128 : Shape := ⟨3, ![1, 1, 128]⟩

abbrev nBuf : Space → Nat
  | .hbm => 12
  | .vmem => 8
  | .smem => 0
  | _ => 0

abbrev bufTy : (tb : Table) → Fin (tcTables nBuf tb) → BufTy
  | .hbm, ⟨0, _⟩ => ⟨S64x128x112x112, .f32⟩
  | .hbm, ⟨1, _⟩ => ⟨S8x128, .f32⟩
  | .hbm, ⟨2, _⟩ => ⟨S8, .f32⟩
  | .hbm, ⟨3, _⟩ => ⟨S128x8, .f32⟩
  | .hbm, ⟨4, _⟩ => ⟨S128, .f32⟩
  | .hbm, ⟨5, _⟩ => ⟨S64x112x112x128, .f32⟩
  | .hbm, ⟨6, _⟩ => ⟨S128x8, .f32⟩
  | .hbm, ⟨7, _⟩ => ⟨S1x8, .f32⟩
  | .hbm, ⟨8, _⟩ => ⟨S8x128, .f32⟩
  | .hbm, ⟨9, _⟩ => ⟨S1x128, .f32⟩
  | .hbm, ⟨10, _⟩ => ⟨S64x112x112x128, .f32⟩
  | .hbm, ⟨11, _⟩ => ⟨S64x128x112x112, .f32⟩
  | .local _ .vmem, ⟨0, _⟩ => ⟨S1x112x112x128, .f32⟩
  | .local _ .vmem, ⟨1, _⟩ => ⟨S1x112x112x128, .f32⟩
  | .local _ .vmem, ⟨2, _⟩ => ⟨S128x8, .f32⟩
  | .local _ .vmem, ⟨3, _⟩ => ⟨S1x8, .f32⟩
  | .local _ .vmem, ⟨4, _⟩ => ⟨S8x128, .f32⟩
  | .local _ .vmem, ⟨5, _⟩ => ⟨S1x128, .f32⟩
  | .local _ .vmem, ⟨6, _⟩ => ⟨S1x112x112x128, .f32⟩
  | .local _ .vmem, ⟨7, _⟩ => ⟨S1x112x112x128, .f32⟩
  | _, _ => ⟨S64x128x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x112x112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x112x112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x128x112x112_S64x112x112x128_0_2_3_1 : S64x128x112x112.Transposes [0, 2, 3, 1] S64x112x112x128
  transposes_S8x128_S128x8_1_0 : S8x128.Transposes [1, 0] S128x8
  shapeCasts_S8_S1x8 : S8.ShapeCasts S1x8
  transposes_S128x8_S8x128_1_0 : S128x8.Transposes [1, 0] S8x128
  shapeCasts_S128_S1x128 : S128.ShapeCasts S1x128
  inb_S1x112x112x128_S1x112x112x128_0_0_0_0 : ∀ a, (![0, 0, 0, 0] : Fin 4 → Nat) a + S1x112x112x128.size a ≤ S1x112x112x128.size a
  h_S1x112x112x128 : 0 < S1x112x112x128.numel
  shapeCasts_S1x112x112x128_S112x112x128 : S1x112x112x128.ShapeCasts S112x112x128
  reduces_S112x112x128_S112x128 : S112x112x128.Reduces [0] S112x128
  reduces_S112x128_S128 : S112x128.Reduces [0] S128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S112x112x128 : S1x1x128.Broadcasts S112x112x128
  shapeCasts_S112x112x128_S1x112x112x128 : S112x112x128.ShapeCasts S1x112x112x128
  transposes_S64x112x112x128_S64x128x112x112_0_3_1_2 : S64x112x112x128.Transposes [0, 3, 1, 2] S64x128x112x112
  dot_S1x128_S128x8_S1x8_1_0_0_1_n_n_wf : DotDims.WF S1x128 S128x8 S1x8 [1] [0] [0] [1] [] []
  dot_S1x8_S8x128_S1x128_1_0_0_1_n_n_wf : DotDims.WF S1x8 S8x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x112x112x128.size a ≤ S64x112x112x128.size a
  hwx0_0 : ∀ i : grid0.Coords, EltTy.bits .f32 = 32 ∨ (Rect.block (s := S64x112x112x128) S1x112x112x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x112x112x128.size a ≤ S64x112x112x128.size a
  hwx0_5 : ∀ i : grid0.Coords, EltTy.bits .f32 = 32 ∨ (Rect.block (s := S64x112x112x128) S1x112x112x128.size (cc0_transform_5 i) (hinb0_5 i)).WholeWords (EltTy.packing .f32)

variable [Facts₀]

def dot_S1x128_S128x8_S1x8_1_0_0_1_n_n : DotDims S1x128 S128x8 S1x8 where
  lhsContracting := [1]
  rhsContracting := [0]
  lhsNonContracting := [0]
  rhsNonContracting := [1]
  lhsBatch := []
  rhsBatch := []
  wf := dot_S1x128_S128x8_S1x8_1_0_0_1_n_n_wf
def dot_S1x8_S8x128_S1x128_1_0_0_1_n_n : DotDims S1x8 S8x128 S1x128 where
  lhsContracting := [1]
  rhsContracting := [0]
  lhsNonContracting := [0]
  rhsNonContracting := [1]
  lhsBatch := []
  rhsBatch := []
  wf := dot_S1x8_S8x128_S1x128_1_0_0_1_n_n_wf

abbrev win0_0 : Pipeline.Window sig grid0 :=
  Pipeline.Window.ofSpec (Memref.whole main_v0) S1x112x112x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x112x112x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x128x112x112 : Shape := ⟨4, ![64, 128, 112, 112]⟩
abbrev S8x128 : Shape := ⟨2, ![8, 128]⟩
abbrev S8 : Shape := ⟨1, ![8]⟩
abbrev S128x8 : Shape := ⟨2, ![128, 8]⟩
abbrev S128 : Shape := ⟨1, ![128]⟩
abbrev S_ : Shape := ⟨0, ![]⟩
abbrev S64x128 : Shape := ⟨2, ![64, 128]⟩
abbrev S64x8 : Shape := ⟨2, ![64, 8]⟩
abbrev S1x8 : Shape := ⟨2, ![1, 8]⟩
abbrev S1x128 : Shape := ⟨2, ![1, 128]⟩
abbrev S64x128x1x1 : Shape := ⟨4, ![64, 128, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S64x128x112x112, .f32⟩
  | .hbm, ⟨1, _⟩ => ⟨S8x128, .f32⟩
  | .hbm, ⟨2, _⟩ => ⟨S8, .f32⟩
  | .hbm, ⟨3, _⟩ => ⟨S128x8, .f32⟩
  | .hbm, ⟨4, _⟩ => ⟨S128, .f32⟩
  | .hbm, ⟨5, _⟩ => ⟨S_, .f32⟩
  | .hbm, ⟨6, _⟩ => ⟨S64x128, .f32⟩
  | .hbm, ⟨7, _⟩ => ⟨S_, .f32⟩
  | .hbm, ⟨8, _⟩ => ⟨S64x128, .f32⟩
  | .hbm, ⟨9, _⟩ => ⟨S64x128, .f32⟩
  | .hbm, ⟨10, _⟩ => ⟨S128x8, .f32⟩
  | .hbm, ⟨11, _⟩ => ⟨S64x8, .f32⟩
  | .hbm, ⟨12, _⟩ => ⟨S1x8, .f32⟩
  | .hbm, ⟨13, _⟩ => ⟨S64x8, .f32⟩
  | .hbm, ⟨14, _⟩ => ⟨S64x8, .f32⟩
  | .hbm, ⟨15, _⟩ => ⟨S_, .f32⟩
  | .hbm, ⟨16, _⟩ => ⟨S64x8, .f32⟩
  | .hbm, ⟨17, _⟩ => ⟨S64x8, .f32⟩
  | .hbm, ⟨18, _⟩ => ⟨S64x8, .f32⟩
  | .hbm, ⟨19, _⟩ => ⟨S64x8, .f32⟩
  | .hbm, ⟨20, _⟩ => ⟨S64x8, .i1⟩
  | .hbm, ⟨21, _⟩ => ⟨S64x8, .f32⟩
  | .hbm, ⟨22, _⟩ => ⟨S64x8, .f32⟩
  | .hbm, ⟨23, _⟩ => ⟨S64x8, .f32⟩
  | .hbm, ⟨24, _⟩ => ⟨S64x8, .f32⟩
  | .hbm, ⟨25, _⟩ => ⟨S64x8, .f32⟩
  | .hbm, ⟨26, _⟩ => ⟨S64x8, .f32⟩
  | .hbm, ⟨27, _⟩ => ⟨S64x8, .f32⟩
  | .hbm, ⟨28, _⟩ => ⟨S64x8, .f32⟩
  | .hbm, ⟨29, _⟩ => ⟨S64x8, .f32⟩
  | .hbm, ⟨30, _⟩ => ⟨S64x8, .f32⟩
  | .hbm, ⟨31, _⟩ => ⟨S8x128, .f32⟩
  | .hbm, ⟨32, _⟩ => ⟨S64x128, .f32⟩
  | .hbm, ⟨33, _⟩ => ⟨S1x128, .f32⟩
  | .hbm, ⟨34, _⟩ => ⟨S64x128, .f32⟩
  | .hbm, ⟨35, _⟩ => ⟨S64x128, .f32⟩
  | .hbm, ⟨36, _⟩ => ⟨S64x128, .f32⟩
  | .hbm, ⟨37, _⟩ => ⟨S64x128, .f32⟩
  | .hbm, ⟨38, _⟩ => ⟨S_, .f32⟩
  | .hbm, ⟨39, _⟩ => ⟨S64x128, .f32⟩
  | .hbm, ⟨40, _⟩ => ⟨S64x128, .f32⟩
  | .hbm, ⟨41, _⟩ => ⟨S_, .f32⟩
  | .hbm, ⟨42, _⟩ => ⟨S64x128, .f32⟩
  | .hbm, ⟨43, _⟩ => ⟨S64x128, .f32⟩
  | .hbm, ⟨44, _⟩ => ⟨S64x128x1x1, .f32⟩
  | .hbm, ⟨45, _⟩ => ⟨S64x128x112x112, .f32⟩
  | .hbm, ⟨46, _⟩ => ⟨S64x128x112x112, .f32⟩
  | _, _ => ⟨S64x128x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]

class Facts₀ : Prop where
  reducesTo_S64x128x112x112_S64x128_d2_3 : S64x128x112x112.ReducesTo [2, 3] S64x128
  h_S_ : 0 < S_.numel
  bcast_S_S64x128 : S_.BroadcastsInDim S64x128 (![] : Fin 0 → Fin S64x128.rank)
  transposes_S8x128_S128x8_1_0 : S8x128.Transposes [1, 0] S128x8
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  bcast_S_S64x8 : S_.BroadcastsInDim S64x8 (![] : Fin 0 → Fin S64x8.rank)
  transposes_S128x8_S8x128_1_0 : S128x8.Transposes [1, 0] S8x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S64x128_S64x128x1x1_0_1 : S64x128.BroadcastsInDim S64x128x1x1 (![0, 1] : Fin 2 → Fin S64x128x1x1.rank)
  bcast_S64x128x1x1_S64x128x112x112_0_1_2_3 : S64x128x1x1.BroadcastsInDim S64x128x112x112 (![0, 1, 2, 3] : Fin 4 → Fin S64x128x112x112.rank)
  dot_S64x128_S128x8_S64x8_1_0_0_1_n_n_wf : DotDims.WF S64x128 S128x8 S64x8 [1] [0] [0] [1] [] []
  dot_S64x8_S8x128_S64x128_1_0_0_1_n_n_wf : DotDims.WF S64x8 S8x128 S64x128 [1] [0] [0] [1] [] []

variable [Facts₀]

def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf
def dot_S64x8_S8x128_S64x128_1_0_0_1_n_n : DotDims S64x8 S8x128 S64x128 where
  lhsContracting := [1]
  rhsContracting := [0]
  lhsNonContracting := [0]
  rhsNonContracting := [1]
  lhsBatch := []
  rhsBatch := []
  wf := dot_S64x8_S8x128_S64x128_1_0_0_1_n_n_wf

class Facts : Prop extends Facts₀ where

variable [Facts]
-- ==== Proof.Gate.lean ====
/-
  Squeeze-and-excitation of one sample, on the extended reals.

  A sample is a family `xb c h w` of 128 channels of 112 × 112 values.  Its channel means are pushed through a
  two-layer perceptron (128 → 8 with the Mish activation, 8 → 128 with the logistic function) and every value of
  channel `c` is multiplied by the resulting gate of that channel.  Both programs of this certificate compute exactly
  this function; the definitions below fix one order for each finite sum.
-/
import Idealize.ShloMosaic.PureOps.Ideal
import Idealize.ShloMosaic.PureOps.Ideal.Laws

noncomputable section

open scoped BigOperators

namespace Cert.Gate

open Idealize.ShloMosaic

/-- The mean of channel `c` over the 112 × 112 = 12544 positions: the sum (columns outside, rows inside) times 1/12544. -/
def mean (xb : Fin 128 → Fin 112 → Fin 112 → EReal) (c : Fin 128) : EReal :=
  (∑ w : Fin 112, ∑ h : Fin 112, xb c h w) * ((1 / 12544 : ℝ) : EReal)

/-- The first layer: `W1 · mean + b1`, eight values. -/
def hidden (xb : Fin 128 → Fin 112 → Fin 112 → EReal) (W1 : Fin 8 → Fin 128 → EReal) (b1 : Fin 8 → EReal)
    (j : Fin 8) : EReal :=
  (∑ c : Fin 128, mean xb c * W1 j c) + b1 j

/-- Mish, `a · tanh (softplus a)`, with the softplus in its stable form `max a 0 + log (1 + e^(-|a|))`
    and `|a| = max a (-a)`. -/
def mish (a : EReal) : EReal :=
  a * Ideal.tanh (max a 0 + Ideal.log1p (Ideal.exp (-(max a (-a)))))

/-- The gate of channel `c`: the logistic function of the second layer `W2 · mish hidden + b2`. -/
def gate (xb : Fin 128 → Fin 112 → Fin 112 → EReal) (W1 : Fin 8 → Fin 128 → EReal) (b1 : Fin 8 → EReal)
    (W2 : Fin 128 → Fin 8 → EReal) (b2 : Fin 128 → EReal) (c : Fin 128) : EReal :=
  Ideal.logistic ((∑ j : Fin 8, mish (hidden xb W1 b1 j) * W2 c j) + b2 c)

/-- The result: each value times its channel's gate. -/
def scaled (xb : Fin 128 → Fin 112 → Fin 112 → EReal) (W1 : Fin 8 → Fin 128 → EReal) (b1 : Fin 8 → EReal)
    (W2 : Fin 128 → Fin 8 → EReal) (b2 : Fin 128 → EReal) (c : Fin 128) (h w : Fin 112) : EReal :=
  xb c h w * gate xb W1 b1 W2 b2 c

/-! ## The literals of the two programs -/

/-- The word `0x3F800000` is the number one. -/
theorem ofBits_one : Ideal.ofBits .f32 0x3F800000#32 = 1 := by
  simp [Ideal.ofBits, Ideal.ieee, -EReal.coe_mul]; norm_num

/-- The word `0x46440000` is the number 12544 = 112². -/
theorem ofBits_12544 : Ideal.ofBits .f32 0x46440000#32 = ((12544 : ℝ) : EReal) := by
  simp [Ideal.ofBits, Ideal.ieee, -EReal.coe_mul]; norm_num

/-- A quotient by 12544 is the product with 1/12544, at the infinities too. -/
theorem div_12544 (s : EReal) : Ideal.div s ((12544 : ℝ) : EReal) = s * ((1 / 12544 : ℝ) : EReal) :=
  Ideal.div_coe (by norm_num) s

/-- The softplus as the reference spells it: it first subtracts zero, tests the difference for being unordered with
    itself (never, on a linear order) and otherwise takes the stable form of the difference's absolute value. -/
theorem softplus_guarded (a : EReal) :
    Scalar.select (Ideal.cmp .une (a - 0) (a - 0)) (a + 0) (max a 0 + Ideal.log1p (Ideal.exp (-(max (a - 0) (-(a - 0))))))
      = max a 0 + Ideal.log1p (Ideal.exp (-(max a (-a)))) := by
  have hc : Ideal.cmp .une (a - 0) (a - 0) = 0#1 := by simp [Ideal.cmp]
  rw [hc, sub_zero]
  exact if_neg (by decide)

end Cert.Gate

end
-- ==== Proof.KernelBody.lean ====
/-
  The kernel's body, read index by index: from one sample's block `x0` ([1,112,112,128], channels last) and the four
  parameter blocks it computes, at `(0, h, w, c)`, the squeeze-and-excitation `Gate.scaled` of the sample.

  Each stage of the body is read at an index over variables of the literal vector types: the two sums over rows and
  then columns and the product with the named 1/12544 (the channel means, a row [1,128]), the first matrix product
  with its bias, Mish, the second matrix product with its bias and the logistic function (the gates, a row [1,128]),
  and the product of the block with the gates broadcast over rows and columns.
-/
import proofs.«147125_g34720515621164_feedfinal_278_6_alg».proof.Proof.Gen.KernelIdeal.Skeleton
import proofs.«147125_g34720515621164_feedfinal_278_6_alg».proof.Proof.Gate
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelGate

open Cert.KernelIdeal Cert.KernelIdeal.Gen Idealize.ShloMosaic Idealize.ShloMosaic.ValueIdx

/-- The named reciprocal is the rational 1/12544. -/
theorem inv_n : Named.named (F := Ideal) κ "inv_12544" (φ := .f32) 0x38A72F05#32 = ((1 / 12544 : ℝ) : EReal) :=
  IdealRules.named_const.ideal_named_scalar _ _ _ _ rfl

/-- One sample's block read channel-major: `sample x0 c h w` is the block at `(0, h, w, c)`. -/
abbrev sample (x0 : FVec Ideal S1x112x112x128 .f32) : Fin 128 → Fin 112 → Fin 112 → EReal :=
  fun c h w => x0 (ix4 (0 : Fin 1) h w c)

/-- The two reductions, over rows and then over columns, of a [112,112,128] vector at channel `c`. -/
theorem sums_apply (v1 : FVec Ideal S112x112x128 .f32) (hφ : FKind.Formats .f32)
    (hacc : (0x00000000#32 : BitVec 32) = FKind.add.neutral .f32 hφ) (c : Fin 128) :
    multiReduction .add [0] S128 (multiReduction .add [0] S112x128 v1 0x00000000#32 reduces_S112x112x128_S112x128 hφ hacc)
        0x00000000#32 reduces_S112x128_S128 hφ hacc (ix1 c)
      = ∑ w : Fin 112, ∑ h : Fin 112, v1 (ix3 h w c) := by
  refine (Ideal.multiReduction_add_single _ _ reduces_S112x128_S128 hφ hacc (ix1 c)).trans ?_
  show ∑ w : Fin 112, _ = _
  refine Finset.sum_congr rfl fun w _ => ?_
  refine (Ideal.multiReduction_add_single v1 _ reduces_S112x112x128_S112x128 hφ hacc _).trans ?_
  show ∑ h : Fin 112, _ = _
  refine Finset.sum_congr rfl fun h _ => ?_
  refine congrArg v1 (funext fun a => Fin.ext ?_)
  match a with
  | ⟨0, _⟩ => rfl
  | ⟨1, _⟩ => rfl
  | ⟨2, _⟩ => rfl

/-- The row of channel means. -/
theorem mean_apply (x0 : FVec Ideal S1x112x112x128 .f32) (hφ : FKind.Formats .f32)
    (hacc : (0x00000000#32 : BitVec 32) = FKind.add.neutral .f32 hφ) (z : Fin 1) (c : Fin 128) :
    mulf (shapeCast S1x128
          (multiReduction .add [0] S128
            (multiReduction .add [0] S112x128 (shapeCast S112x112x128 x0 shapeCasts_S1x112x112x128_S112x112x128)
              0x00000000#32 reduces_S112x112x128_S112x128 hφ hacc)
            0x00000000#32 reduces_S112x128_S128 hφ hacc)
          shapeCasts_S128_S1x128)
        (broadcast S1x128 (Named.named (F := Ideal) κ "inv_12544" (φ := .f32) 0x38A72F05#32)) (ix2 z c)
      = Gate.mean (sample x0) c := by
  show shapeCast S1x128 _ shapeCasts_S128_S1x128 (ix2 z c) * Named.named (F := Ideal) κ "inv_12544" (φ := .f32) 0x38A72F05#32 = _
  rw [inv_n]
  unfold Gate.mean
  refine congrArg (· * _) ?_
  refine (shapeCast_a_1a_apply _ _ z c).trans ?_
  refine (sums_apply _ hφ hacc c).trans ?_
  refine Finset.sum_congr rfl fun w _ => Finset.sum_congr rfl fun h _ => ?_
  exact shapeCast_1abc_abc_apply x0 _ h w c

/-- The operand indices of the first matrix product ([1,128] × [128,8]): the row of the left operand is the result's
    row, the column of the right operand the result's column. -/
theorem lhs1_0 (i : S1x8.Idx) (q : dot_S1x128_S128x8_S1x8_1_0_0_1_n_n.contr.Idx) :
    (dot_S1x128_S128x8_S1x8_1_0_0_1_n_n.lhsIdx i q 0).val = (i 0).val := by
  unfold DotDims.lhsIdx
  rw [dif_neg (show ¬(0 : Fin S1x128.rank) ∈ dot_S1x128_S128x8_S1x8_1_0_0_1_n_n.lhsBatch by decide),
    dif_pos (show (0 : Fin S1x128.rank) ∈ dot_S1x128_S128x8_S1x8_1_0_0_1_n_n.lhsNonContracting by decide)]
  rfl
theorem rhs1_1 (i : S1x8.Idx) (q : dot_S1x128_S128x8_S1x8_1_0_0_1_n_n.contr.Idx) :
    (dot_S1x128_S128x8_S1x8_1_0_0_1_n_n.rhsIdx i q 1).val = (i 1).val := by
  unfold DotDims.rhsIdx
  rw [dif_neg (show ¬(1 : Fin S128x8.rank) ∈ dot_S1x128_S128x8_S1x8_1_0_0_1_n_n.rhsBatch by decide),
    dif_pos (show (1 : Fin S128x8.rank) ∈ dot_S1x128_S128x8_S1x8_1_0_0_1_n_n.rhsNonContracting by decide)]
  rfl
/-- The same for the second matrix product ([1,8] × [8,128]). -/
theorem lhs2_0 (i : S1x128.Idx) (q : dot_S1x8_S8x128_S1x128_1_0_0_1_n_n.contr.Idx) :
    (dot_S1x8_S8x128_S1x128_1_0_0_1_n_n.lhsIdx i q 0).val = (i 0).val := by
  unfold DotDims.lhsIdx
  rw [dif_neg (show ¬(0 : Fin S1x8.rank) ∈ dot_S1x8_S8x128_S1x128_1_0_0_1_n_n.lhsBatch by decide),
    dif_pos (show (0 : Fin S1x8.rank) ∈ dot_S1x8_S8x128_S1x128_1_0_0_1_n_n.lhsNonContracting by decide)]
  rfl
theorem rhs2_1 (i : S1x128.Idx) (q : dot_S1x8_S8x128_S1x128_1_0_0_1_n_n.contr.Idx) :
    (dot_S1x8_S8x128_S1x128_1_0_0_1_n_n.rhsIdx i q 1).val = (i 1).val := by
  unfold DotDims.rhsIdx
  rw [dif_neg (show ¬(1 : Fin S8x128.rank) ∈ dot_S1x8_S8x128_S1x128_1_0_0_1_n_n.rhsBatch by decide),
    dif_pos (show (1 : Fin S8x128.rank) ∈ dot_S1x8_S8x128_S1x128_1_0_0_1_n_n.rhsNonContracting by decide)]
  rfl

/-- The first matrix product, from the zero accumulator: a row [1,128] times a [128,8] matrix. -/
theorem matmul1_apply (a : FVec Ideal S1x128 .f32) (x1 : FVec Ideal S128x8 .f32) (j : Fin 8) :
    matmul dot_S1x128_S128x8_S1x8_1_0_0_1_n_n none a (shapeCast S128x8 x1 shapeCasts_S128x8_S128x8)
        (constant S1x8 .f32 0x00000000#32) (ix2 (0 : Fin 1) j)
      = ∑ c : Fin 128, a (ix2 (0 : Fin 1) c) * x1 (ix2 c j) := by
  rw [shapeCast_self]
  refine (Ideal.matmul_constant_zero_apply dot_S1x128_S128x8_S1x8_1_0_0_1_n_n none a x1 (ix2 (0 : Fin 1) j)).trans ?_
  rw [← Equiv.sum_comp (ValueIdx.contrEquiv1 dot_S1x128_S128x8_S1x8_1_0_0_1_n_n 128 rfl rfl).symm]
  refine Finset.sum_congr rfl fun k _ => ?_
  have hk := ValueIdx.contrEquiv1_symm_val dot_S1x128_S128x8_S1x8_1_0_0_1_n_n 128 rfl rfl k
  have el : dot_S1x128_S128x8_S1x8_1_0_0_1_n_n.lhsIdx (ix2 (0 : Fin 1) j)
      ((ValueIdx.contrEquiv1 dot_S1x128_S128x8_S1x8_1_0_0_1_n_n 128 rfl rfl).symm k) = ix2 (0 : Fin 1) k :=
    funext fun b => Fin.ext (by
      match b with
      | ⟨0, _⟩ => exact lhs1_0 _ _
      | ⟨1, _⟩ => exact (dot_S1x128_S128x8_S1x8_1_0_0_1_n_n.lhsIdx_val_of_single rfl _ _).trans hk)
  have er : dot_S1x128_S128x8_S1x8_1_0_0_1_n_n.rhsIdx (ix2 (0 : Fin 1) j)
      ((ValueIdx.contrEquiv1 dot_S1x128_S128x8_S1x8_1_0_0_1_n_n 128 rfl rfl).symm k) = ix2 k j :=
    funext fun b => Fin.ext (by
      match b with
      | ⟨0, _⟩ => exact (dot_S1x128_S128x8_S1x8_1_0_0_1_n_n.rhsIdx_val_of_single rfl _ _).trans hk
      | ⟨1, _⟩ => exact rhs1_1 _ _)
  rw [el, er]

/-- The first layer: the product plus the bias row. -/
theorem hidden_apply (a : FVec Ideal S1x128 .f32) (x1 : FVec Ideal S128x8 .f32) (x2 : FVec Ideal S1x8 .f32) (j : Fin 8) :
    addf (matmul dot_S1x128_S128x8_S1x8_1_0_0_1_n_n none a (shapeCast S128x8 x1 shapeCasts_S128x8_S128x8)
          (constant S1x8 .f32 0x00000000#32)) (shapeCast S1x8 x2 shapeCasts_S1x8_S1x8) (ix2 (0 : Fin 1) j)
      = (∑ c : Fin 128, a (ix2 (0 : Fin 1) c) * x1 (ix2 c j)) + x2 (ix2 (0 : Fin 1) j) := by
  show matmul dot_S1x128_S128x8_S1x8_1_0_0_1_n_n none a (shapeCast S128x8 x1 shapeCasts_S128x8_S128x8)
      (constant S1x8 .f32 0x00000000#32) (ix2 (0 : Fin 1) j) + shapeCast S1x8 x2 shapeCasts_S1x8_S1x8 (ix2 (0 : Fin 1) j) = _
  rw [matmul1_apply, shapeCast_self]

/-- Mish, element by element: the body's `0 - |v|` is `-|v|`. -/
theorem mish_apply (v : FVec Ideal S1x8 .f32) (i : S1x8.Idx) :
    mulf v (tanh (addf (maximumf v (broadcast S1x8 (FloatOps.ofBits .f32 0x00000000#32)))
        (log1p (exp (subf (broadcast S1x8 (FloatOps.ofBits .f32 0x00000000#32)) (absf v)))))) i
      = Gate.mish (v i) := by
  show v i * Ideal.tanh (max (v i) (Ideal.ofBits .f32 0x00000000#32)
      + Ideal.log1p (Ideal.exp (Ideal.ofBits .f32 0x00000000#32 - max (v i) (-(v i))))) = _
  rw [Ideal.ofBits_zero_f32, zero_sub]
  rfl

/-- The second matrix product, from the zero accumulator: a row [1,8] times an [8,128] matrix. -/
theorem matmul2_apply (y : FVec Ideal S1x8 .f32) (x3 : FVec Ideal S8x128 .f32) (c : Fin 128) :
    matmul dot_S1x8_S8x128_S1x128_1_0_0_1_n_n none y (shapeCast S8x128 x3 shapeCasts_S8x128_S8x128)
        (constant S1x128 .f32 0x00000000#32) (ix2 (0 : Fin 1) c)
      = ∑ j : Fin 8, y (ix2 (0 : Fin 1) j) * x3 (ix2 j c) := by
  rw [shapeCast_self]
  refine (Ideal.matmul_constant_zero_apply dot_S1x8_S8x128_S1x128_1_0_0_1_n_n none y x3 (ix2 (0 : Fin 1) c)).trans ?_
  rw [← Equiv.sum_comp (ValueIdx.contrEquiv1 dot_S1x8_S8x128_S1x128_1_0_0_1_n_n 8 rfl rfl).symm]
  refine Finset.sum_congr rfl fun k _ => ?_
  have hk := ValueIdx.contrEquiv1_symm_val dot_S1x8_S8x128_S1x128_1_0_0_1_n_n 8 rfl rfl k
  have el : dot_S1x8_S8x128_S1x128_1_0_0_1_n_n.lhsIdx (ix2 (0 : Fin 1) c)
      ((ValueIdx.contrEquiv1 dot_S1x8_S8x128_S1x128_1_0_0_1_n_n 8 rfl rfl).symm k) = ix2 (0 : Fin 1) k :=
    funext fun b => Fin.ext (by
      match b with
      | ⟨0, _⟩ => exact lhs2_0 _ _
      | ⟨1, _⟩ => exact (dot_S1x8_S8x128_S1x128_1_0_0_1_n_n.lhsIdx_val_of_single rfl _ _).trans hk)
  have er : dot_S1x8_S8x128_S1x128_1_0_0_1_n_n.rhsIdx (ix2 (0 : Fin 1) c)
      ((ValueIdx.contrEquiv1 dot_S1x8_S8x128_S1x128_1_0_0_1_n_n 8 rfl rfl).symm k) = ix2 k c :=
    funext fun b => Fin.ext (by
      match b with
      | ⟨0, _⟩ => exact (dot_S1x8_S8x128_S1x128_1_0_0_1_n_n.rhsIdx_val_of_single rfl _ _).trans hk
      | ⟨1, _⟩ => exact rhs2_1 _ _)
  rw [el, er]

/-- The row of gates: the logistic function of the second product plus its bias row. -/
theorem gate_apply (y : FVec Ideal S1x8 .f32) (x3 : FVec Ideal S8x128 .f32) (x4 : FVec Ideal S1x128 .f32) (c : Fin 128) :
    logistic (addf (matmul dot_S1x8_S8x128_S1x128_1_0_0_1_n_n none y (shapeCast S8x128 x3 shapeCasts_S8x128_S8x128)
          (constant S1x128 .f32 0x00000000#32)) (shapeCast S1x128 x4 shapeCasts_S1x128_S1x128)) (ix2 (0 : Fin 1) c)
      = Ideal.logistic ((∑ j : Fin 8, y (ix2 (0 : Fin 1) j) * x3 (ix2 j c)) + x4 (ix2 (0 : Fin 1) c)) := by
  show Ideal.logistic (matmul dot_S1x8_S8x128_S1x128_1_0_0_1_n_n none y (shapeCast S8x128 x3 shapeCasts_S8x128_S8x128)
      (constant S1x128 .f32 0x00000000#32) (ix2 (0 : Fin 1) c) + shapeCast S1x128 x4 shapeCasts_S1x128_S1x128 (ix2 (0 : Fin 1) c)) = _
  rw [matmul2_apply, shapeCast_self]

/-- The block times the gates broadcast over rows and columns, stored with the leading unit axis. -/
theorem out_apply (x0 : FVec Ideal S1x112x112x128 .f32) (g : FVec Ideal S1x128 .f32) (z : Fin 1) (h w : Fin 112) (c : Fin 128) :
    shapeCast S1x112x112x128
        (mulf (shapeCast S112x112x128 x0 shapeCasts_S1x112x112x128_S112x112x128)
          (broadcastTo S112x112x128 (shapeCast S1x1x128 g shapeCasts_S1x128_S1x1x128) broadcasts_S1x1x128_S112x112x128))
        shapeCasts_S112x112x128_S1x112x112x128 (ix4 z h w c)
      = x0 (ix4 (0 : Fin 1) h w c) * g (ix2 (0 : Fin 1) c) := by
  refine (shapeCast_abc_1abc_apply _ _ z h w c).trans ?_
  show shapeCast S112x112x128 x0 shapeCasts_S1x112x112x128_S112x112x128 (ix3 h w c)
      * broadcastTo S112x112x128 (shapeCast S1x1x128 g shapeCasts_S1x128_S1x1x128) broadcasts_S1x1x128_S112x112x128 (ix3 h w c) = _
  rw [shapeCast_1abc_abc_apply]
  refine congrArg (_ * ·) ?_
  refine (broadcastTo_apply _ _ (ix3 h w c) (ix3 (0 : Fin 1) (0 : Fin 1) c) (fun a => ?_)).trans ?_
  · match a with
    | ⟨0, _⟩ => show 0 = if (1 : Nat) = 1 then 0 else h.val; rw [if_pos rfl]
    | ⟨1, _⟩ => show 0 = if (1 : Nat) = 1 then 0 else w.val; rw [if_pos rfl]
    | ⟨2, _⟩ => show c.val = if (128 : Nat) = 1 then 0 else c.val; rw [if_neg (by decide)]
  · exact shapeCast_ab_1ab_apply g _ (0 : Fin 1) (0 : Fin 1) c

/-- THE BODY'S PAYLOAD at `(0, h, w, c)`: the squeeze-and-excitation of the sample, the parameter blocks read as the
    host prepared them (`W1` and `W2` transposed, the biases as rows). -/
theorem pay_apply (x0 : Vec Ideal S1x112x112x128 .f32) (x1 : Vec Ideal S128x8 .f32) (x2 : Vec Ideal S1x8 .f32)
    (x3 : Vec Ideal S8x128 .f32) (x4 : Vec Ideal S1x128 .f32) (z : Fin 1) (h w : Fin 112) (c : Fin 128) :
    k0_pay1 (F := Ideal) x0 x1 x2 x3 x4 (ix4 z h w c)
      = Gate.scaled (sample x0) (fun j c => x1 (ix2 c j)) (fun j => x2 (ix2 (0 : Fin 1) j))
          (fun c j => x3 (ix2 j c)) (fun c => x4 (ix2 (0 : Fin 1) c)) c h w := by
  unfold k0_pay1
  dsimp only
  refine (out_apply x0 _ z h w c).trans ?_
  unfold Gate.scaled Gate.gate
  refine congrArg (_ * ·) ?_
  refine (gate_apply _ x3 x4 c).trans ?_
  refine congrArg (fun s => Ideal.logistic (s + _)) ?_
  refine Finset.sum_congr rfl fun j _ => ?_
  refine congrArg (· * _) ?_
  refine (mish_apply _ (ix2 (0 : Fin 1) j)).trans ?_
  refine congrArg Gate.mish ?_
  refine (hidden_apply _ x1 x2 j).trans ?_
  unfold Gate.hidden
  refine congrArg (· + _) ?_
  refine Finset.sum_congr rfl fun c' _ => ?_
  refine congrArg (· * _) ?_
  exact mean_apply x0 _ _ (0 : Fin 1) c'

end Cert.KernelGate

end
-- ==== Proof.Whole.lean ====
/-
  The result of both programs as ONE function of the five argument arrays: at `(b, c, h, w)` the squeeze-and-excitation
  of sample `b` — `x[b, c, h, w]` times the gate of channel `c` computed from the means of `x[b]`, the first layer
  `W1[j, c]`, `b1[j]` and the second layer `W2[c, j]`, `b2[c]`.
-/
import proofs.«147125_g34720515621164_feedfinal_278_6_alg».proof.Proof.Gate
import Idealize.ShloMosaic.Lib.ValueIdx

noncomputable section

namespace Cert.Gate

open Idealize.ShloMosaic Idealize.ShloMosaic.ValueIdx

/-- Sample `b` of a [64,128,112,112] array, as a family over channel, row and column. -/
abbrev sampleOf (a0 : (⟨4, ![64, 128, 112, 112]⟩ : Shape).Idx → EReal) (b : Fin 64) : Fin 128 → Fin 112 → Fin 112 → EReal :=
  fun c h w => a0 (ix4 b c h w)

/-- The whole result array. -/
def whole (a0 : (⟨4, ![64, 128, 112, 112]⟩ : Shape).Idx → EReal) (a1 : (⟨2, ![8, 128]⟩ : Shape).Idx → EReal)
    (a2 : (⟨1, ![8]⟩ : Shape).Idx → EReal) (a3 : (⟨2, ![128, 8]⟩ : Shape).Idx → EReal)
    (a4 : (⟨1, ![128]⟩ : Shape).Idx → EReal) : (⟨4, ![64, 128, 112, 112]⟩ : Shape).Idx → EReal := fun i =>
  scaled (sampleOf a0 ⟨(i 0).val, (i 0).isLt⟩) (fun j c => a1 (ix2 j c)) (fun j => a2 (ix1 j)) (fun c j => a3 (ix2 c j))
    (fun c => a4 (ix1 c)) ⟨(i 1).val, (i 1).isLt⟩ ⟨(i 2).val, (i 2).isLt⟩ ⟨(i 3).val, (i 3).isLt⟩

/-- The result array at an index given by its coordinates. -/
theorem whole_apply (a0 : (⟨4, ![64, 128, 112, 112]⟩ : Shape).Idx → EReal) (a1 : (⟨2, ![8, 128]⟩ : Shape).Idx → EReal)
    (a2 : (⟨1, ![8]⟩ : Shape).Idx → EReal) (a3 : (⟨2, ![128, 8]⟩ : Shape).Idx → EReal)
    (a4 : (⟨1, ![128]⟩ : Shape).Idx → EReal) (b : Fin 64) (c : Fin 128) (h w : Fin 112) :
    whole a0 a1 a2 a3 a4 (ix4 b c h w)
      = scaled (sampleOf a0 b) (fun j c => a1 (ix2 j c)) (fun j => a2 (ix1 j)) (fun c j => a3 (ix2 c j))
          (fun c => a4 (ix1 c)) c h w := rfl

end Cert.Gate

end
-- ==== Proof.KernelArray.lean ====
/-
  From the kernel's body to the result array.

  The region's output array ([64,112,112,128], channels last) is written one sample per grid point: point `t` stages
  sample `t` of the transposed input and the four whole parameter arrays, and writes back sample `t` of the output.
  So the array ends as `region` — at `(b, h, w, c)` the squeeze-and-excitation of sample `b` — of the arrays the host
  prepared before the region (the input with channels moved last, the two weight matrices transposed, the biases as
  rows); the host's transposition after the region moves the channels back, and the result is `Gate.whole` of the
  arguments.
-/
import proofs.«147125_g34720515621164_feedfinal_278_6_alg».proof.Proof.Gen.KernelIdeal.Frame
import proofs.«147125_g34720515621164_feedfinal_278_6_alg».proof.Proof.KernelBody
import proofs.«147125_g34720515621164_feedfinal_278_6_alg».proof.Proof.Whole
import Idealize.ShloMosaic.Lib.Pipeline.Value
import Idealize.ShloMosaic.Lib.StableHlo.Run
import Idealize.ShloMosaic.Lib.Tactic

noncomputable section

open scoped BigOperators

namespace Cert.KernelGate

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What the region's output array holds, as a function of the arrays the region finds -/

/-- At `(b, h, w, c)`: the squeeze-and-excitation of sample `b` of `A0` (channels last), with `A1 = W1ᵀ`, `A3 = W2ᵀ`
    and the biases as the rows `A2`, `A4`. -/
def region (A0 : S64x112x112x128.Idx → EReal) (A1 : S128x8.Idx → EReal) (A2 : S1x8.Idx → EReal)
    (A3 : S8x128.Idx → EReal) (A4 : S1x128.Idx → EReal) : S64x112x112x128.Idx → EReal := fun i =>
  Gate.scaled (fun c h w => A0 (ix4 (⟨(i 0).val, (i 0).isLt⟩ : Fin 64) h w c)) (fun j c => A1 (ix2 c j))
    (fun j => A2 (ix2 (0 : Fin 1) j)) (fun c j => A3 (ix2 j c)) (fun c => A4 (ix2 (0 : Fin 1) c))
    ⟨(i 3).val, (i 3).isLt⟩ ⟨(i 1).val, (i 1).isLt⟩ ⟨(i 2).val, (i 2).isLt⟩

/-- The body's payload on blocks that are sample `i 0` of `A0` and the whole parameter arrays is `region` at `i`, for
    an index `i` of the array with the block index's spatial and channel coordinates. -/
theorem block_eq (x0 : Vec Ideal S1x112x112x128 .f32) (x1 : Vec Ideal S128x8 .f32) (x2 : Vec Ideal S1x8 .f32)
    (x3 : Vec Ideal S8x128 .f32) (x4 : Vec Ideal S1x128 .f32)
    (A0 : S64x112x112x128.Idx → EReal) (A1 : S128x8.Idx → EReal) (A2 : S1x8.Idx → EReal)
    (A3 : S8x128.Idx → EReal) (A4 : S1x128.Idx → EReal) (y : S1x112x112x128.Idx) (i : S64x112x112x128.Idx)
    (h0 : ∀ (h w : Fin 112) (c : Fin 128), x0 (ix4 (0 : Fin 1) h w c) = A0 (ix4 (⟨(i 0).val, (i 0).isLt⟩ : Fin 64) h w c))
    (h1 : x1 = A1) (h2 : x2 = A2) (h3 : x3 = A3) (h4 : x4 = A4)
    (e1 : (i 1).val = (y 1).val) (e2 : (i 2).val = (y 2).val) (e3 : (i 3).val = (y 3).val) :
    k0_pay1 (F := Ideal) x0 x1 x2 x3 x4 y = region A0 A1 A2 A3 A4 i := by
  subst h1 h2 h3 h4
  obtain ⟨z, h, w, c, rfl⟩ : ∃ (z : Fin 1) (h w : Fin 112) (c : Fin 128), y = ix4 z h w c :=
    ⟨y 0, y 1, y 2, y 3, eq_ix4 y⟩
  have hs : sample x0 = fun c h w => A0 (ix4 (⟨(i 0).val, (i 0).isLt⟩ : Fin 64) h w c) :=
    funext fun c => funext fun h => funext fun w => h0 h w c
  have hh : (⟨(i 1).val, (i 1).isLt⟩ : Fin 112) = h := Fin.ext e1
  have hw : (⟨(i 2).val, (i 2).isLt⟩ : Fin 112) = w := Fin.ext e2
  have hc : (⟨(i 3).val, (i 3).isLt⟩ : Fin 128) = c := Fin.ext e3
  rw [pay_apply, hs]
  unfold region
  rw [hh, hw, hc]

/-! ## The printed index maps, decided over the 64 grid points -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The input block and the output block are the same sample, whole in the other axes; the parameter windows
    stay at block (0, 0). -/
theorem idx_facts : ∀ t : Fin cfg0.N,
    win0_0.index t (0 : Fin 4) = win0_5.index t (0 : Fin 4) ∧ win0_0.index t (1 : Fin 4) = 0
    ∧ win0_0.index t (2 : Fin 4) = 0 ∧ win0_0.index t (3 : Fin 4) = 0
    ∧ win0_5.index t (0 : Fin 4) < 64 ∧ win0_5.index t (1 : Fin 4) = 0
    ∧ win0_5.index t (2 : Fin 4) = 0 ∧ win0_5.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every sample is some point's output block. -/
theorem idx_onto : ∀ q : Fin 64, ∃ t : Fin cfg0.N, win0_5.index t = ![q.val, 0, 0, 0] :=
  (by decide +kernel : ∀ q : Fin 64, ∃ t : Fin grid0.N, win0_5.index t = ![q.val, 0, 0, 0])

/-! ## The input blocks at a point -/

/-- The input window's block at point `t` is sample `t` of the transposed input. -/
theorem iblk0_apply (c : Dev nD) (t : Fin cfg0.N) (q : Fin 64) (hq : q.val = win0_5.index t (0 : Fin 4))
    (h w : Fin 112) (ch : Fin 128) :
    (iblk m c 0 t : Vec Ideal S1x112x112x128 .f32) (ix4 (0 : Fin 1) h w ch) = V m c main_v0 (ix4 q h w ch) := by
  obtain ⟨e0, e1, e2, e3, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 4) * 1 + 1 * 0 = q.val; omega
  | ⟨1, _⟩ => show win0_0.index t (1 : Fin 4) * 112 + 1 * h.val = h.val; omega
  | ⟨2, _⟩ => show win0_0.index t (2 : Fin 4) * 112 + 1 * w.val = w.val; omega
  | ⟨3, _⟩ => show win0_0.index t (3 : Fin 4) * 128 + 1 * ch.val = ch.val; omega

/-- Each parameter window's block is its whole array. -/
theorem iblk1_eq (c : Dev nD) (t : Fin cfg0.N) : (iblk m c 1 t : Vec Ideal S128x8 .f32) = V m c main_v1 := by
  obtain ⟨-, -, -, -, -, -, -, -, e0, e1, -⟩ := idx_facts t
  funext y
  unfold iblk
  rw [View.read_apply]
  show V m c main_v1 _ = V m c main_v1 y
  refine congrArg (V m c main_v1) (funext fun a => Fin.ext ?_)
  match a with
  | ⟨0, _⟩ => show win0_1.index t (0 : Fin 2) * 128 + 1 * (y 0).val = (y 0).val; omega
  | ⟨1, _⟩ => show win0_1.index t (1 : Fin 2) * 8 + 1 * (y 1).val = (y 1).val; omega
theorem iblk2_eq (c : Dev nD) (t : Fin cfg0.N) : (iblk m c 2 t : Vec Ideal S1x8 .f32) = V m c main_v2 := by
  obtain ⟨-, -, -, -, -, -, -, -, -, -, e0, e1, -⟩ := idx_facts t
  funext y
  unfold iblk
  rw [View.read_apply]
  show V m c main_v2 _ = V m c main_v2 y
  refine congrArg (V m c main_v2) (funext fun a => Fin.ext ?_)
  match a with
  | ⟨0, _⟩ => show win0_2.index t (0 : Fin 2) * 1 + 1 * (y 0).val = (y 0).val; omega
  | ⟨1, _⟩ => show win0_2.index t (1 : Fin 2) * 8 + 1 * (y 1).val = (y 1).val; omega
theorem iblk3_eq (c : Dev nD) (t : Fin cfg0.N) : (iblk m c 3 t : Vec Ideal S8x128 .f32) = V m c main_v3 := by
  obtain ⟨-, -, -, -, -, -, -, -, -, -, -, -, e0, e1, -⟩ := idx_facts t
  funext y
  unfold iblk
  rw [View.read_apply]
  show V m c main_v3 _ = V m c main_v3 y
  refine congrArg (V m c main_v3) (funext fun a => Fin.ext ?_)
  match a with
  | ⟨0, _⟩ => show win0_3.index t (0 : Fin 2) * 8 + 1 * (y 0).val = (y 0).val; omega
  | ⟨1, _⟩ => show win0_3.index t (1 : Fin 2) * 128 + 1 * (y 1).val = (y 1).val; omega
theorem iblk4_eq (c : Dev nD) (t : Fin cfg0.N) : (iblk m c 4 t : Vec Ideal S1x128 .f32) = V m c main_v4 := by
  obtain ⟨-, -, -, -, -, -, -, -, -, -, -, -, -, -, e0, e1⟩ := idx_facts t
  funext y
  unfold iblk
  rw [View.read_apply]
  show V m c main_v4 _ = V m c main_v4 y
  refine congrArg (V m c main_v4) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ## From the blocks to the array -/

/-- The region's output array as the function of the arrays the region finds. -/
abbrev regionOf (c : Dev nD) : S64x112x112x128.Idx → EReal :=
  region (V m c main_v0) (V m c main_v1) (V m c main_v2) (V m c main_v3) (V m c main_v4)

/-- WHAT POINT `t` WRITES BACK is block `t` of `regionOf`. -/
theorem flushed_eq (c : Dev nD) (t : Fin cfg0.N) :
    (dats m 0 c).flushed 5 t = ((cfg0.win 5).blk t).view.read (Elt Ideal) (regionOf m c) := by
  show (cfg0.win 5).cut (grid0.coords t) ((dats m 0 c).after 5 t) = _
  rw [after0_5]
  unfold out0_5
  rw [View.canon_unit_zero hz4]
  simp only [View.ld_unit_zero (S := S1x112x112x128) hz4, View.ld_unit_zero (S := S128x8) hz2,
    View.ld_unit_zero (S := S1x8) hz2, View.ld_unit_zero (S := S8x128) hz2, View.ld_unit_zero (S := S1x128) hz2]
  obtain ⟨-, -, -, -, e4, e5, e6, e7, -⟩ := idx_facts t
  funext y
  show k0_pay1 (F := Ideal) (iblk m c 0 t) (iblk m c 1 t) (iblk m c 2 t) (iblk m c 3 t) (iblk m c 4 t) y
    = regionOf m c (((cfg0.win 5).blk t).view.emb y)
  have hy0 : (y 0).val < 1 := (y 0).isLt
  have q0 : ((((cfg0.win 5).blk t).view.emb y) 0).val = win0_5.index t (0 : Fin 4) := by
    show win0_5.index t (0 : Fin 4) * 1 + 1 * (y 0).val = _; omega
  refine block_eq (iblk m c 0 t) (iblk m c 1 t) (iblk m c 2 t) (iblk m c 3 t) (iblk m c 4 t)
    (V m c main_v0) (V m c main_v1) (V m c main_v2) (V m c main_v3) (V m c main_v4) y
    (((cfg0.win 5).blk t).view.emb y) ?_ (iblk1_eq m c t) (iblk2_eq m c t) (iblk3_eq m c t) (iblk4_eq m c t) ?_ ?_ ?_
  · intro h w ch
    exact iblk0_apply m c t _ q0 h w ch
  · show win0_5.index t (1 : Fin 4) * 112 + 1 * (y 1).val = (y 1).val; omega
  · show win0_5.index t (2 : Fin 4) * 112 + 1 * (y 2).val = (y 2).val; omega
  · show win0_5.index t (3 : Fin 4) * 128 + 1 * (y 3).val = (y 3).val; omega

/-- An index of the output array is in point `t`'s block iff each coordinate is in the block's range on its axis. -/
theorem mem_blk (t : Fin cfg0.N) (i : S64x112x112x128.Idx) :
    i ∈ ((cfg0.win 5).blk t).view.set ↔ ∀ a : Fin 4, win0_5.index t a * S1x112x112x128.size a ≤ (i a).val
      ∧ (i a).val < win0_5.index t a * S1x112x112x128.size a + S1x112x112x128.size a := by
  show i ∈ ((View.whole main_v5).slice (win0_5.rect t)).set ↔ _
  rw [View.set_slice_whole, Rect.mem_set_unit]
  exact Iff.rfl

/-- The 64 output blocks cover the array: index `(b, h, w, c)` is in the block of the point whose sample is `b`. -/
theorem cover (i : S64x112x112x128.Idx) :
    ∃ t : Fin cfg0.N, (cfg0.win 5).flush t = true ∧ i ∈ ((cfg0.win 5).blk t).view.set := by
  have hi0 : (i 0).val < 64 := (i 0).isLt
  have hi1 : (i 1).val < 112 := (i 1).isLt
  have hi2 : (i 2).val < 112 := (i 2).isLt
  have hi3 : (i 3).val < 128 := (i 3).isLt
  obtain ⟨t, ht⟩ := idx_onto ⟨(i 0).val, hi0⟩
  have q0 : win0_5.index t (0 : Fin 4) = (i 0).val := congrFun ht 0
  have q1 : win0_5.index t (1 : Fin 4) = 0 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 112 ≤ (i 1).val ∧ (i 1).val < win0_5.index t (1 : Fin 4) * 112 + 112; omega
  | ⟨2, _⟩ => show win0_5.index t (2 : Fin 4) * 112 ≤ (i 2).val ∧ (i 2).val < win0_5.index t (2 : Fin 4) * 112 + 112; omega
  | ⟨3, _⟩ => show win0_5.index t (3 : Fin 4) * 128 ≤ (i 3).val ∧ (i 3).val < win0_5.index t (3 : Fin 4) * 128 + 128; omega

/-- THE OUTPUT ARRAY after the region. -/
theorem final5 (c : Dev nD) : (dats m 0 c).arrAt 5 cfg0.N = regionOf m c :=
  (dats m 0 c).arrAt_eq_of_cover 5 (regionOf m c) (fun t _ => flushed_eq m c t) cover

/-! ## The host operations before the region, read at an index -/

theorem V_v0 (c : Dev nD) : (V m c main_v0 : S64x112x112x128.Idx → EReal)
    = transpose S64x112x112x128 [0, 2, 3, 1] (m ((c : Thread nD τ).loc main_arg0))
        transposes_S64x128x112x112_S64x112x112x128_0_2_3_1 := by
  show StableHlo.after hostOps0 (fun b => m (c, b)) (Proc.devRef .tc main_v0) = _
  after_results
theorem V_v1 (c : Dev nD) : (V m c main_v1 : S128x8.Idx → EReal)
    = transpose S128x8 [1, 0] (m ((c : Thread nD τ).loc main_arg1)) transposes_S8x128_S128x8_1_0 := by
  show StableHlo.after hostOps0 (fun b => m (c, b)) (Proc.devRef .tc main_v1) = _
  after_results
theorem V_v2 (c : Dev nD) : (V m c main_v2 : S1x8.Idx → EReal)
    = shapeCast S1x8 (m ((c : Thread nD τ).loc main_arg2)) shapeCasts_S8_S1x8 := by
  show StableHlo.after hostOps0 (fun b => m (c, b)) (Proc.devRef .tc main_v2) = _
  after_results
  rfl
theorem V_v3 (c : Dev nD) : (V m c main_v3 : S8x128.Idx → EReal)
    = transpose S8x128 [1, 0] (m ((c : Thread nD τ).loc main_arg3)) transposes_S128x8_S8x128_1_0 := by
  show StableHlo.after hostOps0 (fun b => m (c, b)) (Proc.devRef .tc main_v3) = _
  after_results
theorem V_v4 (c : Dev nD) : (V m c main_v4 : S1x128.Idx → EReal)
    = shapeCast S1x128 (m ((c : Thread nD τ).loc main_arg4)) shapeCasts_S128_S1x128 := by
  show StableHlo.after hostOps0 (fun b => m (c, b)) (Proc.devRef .tc main_v4) = _
  after_results
  rfl

/-- The input with the channels moved last. -/
theorem V_v0_apply (c : Dev nD) (b : Fin 64) (h w : Fin 112) (ch : Fin 128) :
    (V m c main_v0 : S64x112x112x128.Idx → EReal) (ix4 b h w ch)
      = (m ((c : Thread nD τ).loc main_arg0) : S64x128x112x112.Idx → EReal) (ix4 b ch h w) := by
  rw [V_v0]
  exact transpose_apply _ _ _ _ _ fun a => match a with
    | ⟨0, _⟩ => rfl | ⟨1, _⟩ => rfl | ⟨2, _⟩ => rfl | ⟨3, _⟩ => rfl
/-- The first layer's weights transposed. -/
theorem V_v1_apply (c : Dev nD) (ch : Fin 128) (j : Fin 8) :
    (V m c main_v1 : S128x8.Idx → EReal) (ix2 ch j)
      = (m ((c : Thread nD τ).loc main_arg1) : S8x128.Idx → EReal) (ix2 j ch) := by
  rw [V_v1]
  exact transpose_ix2_apply _ _ ch j
/-- The first bias as a row. -/
theorem V_v2_apply (c : Dev nD) (j : Fin 8) :
    (V m c main_v2 : S1x8.Idx → EReal) (ix2 (0 : Fin 1) j)
      = (m ((c : Thread nD τ).loc main_arg2) : S8.Idx → EReal) (ix1 j) := by
  rw [V_v2]
  exact shapeCast_a_1a_apply _ _ (0 : Fin 1) j
/-- The second layer's weights transposed. -/
theorem V_v3_apply (c : Dev nD) (j : Fin 8) (ch : Fin 128) :
    (V m c main_v3 : S8x128.Idx → EReal) (ix2 j ch)
      = (m ((c : Thread nD τ).loc main_arg3) : S128x8.Idx → EReal) (ix2 ch j) := by
  rw [V_v3]
  exact transpose_ix2_apply _ _ j ch
/-- The second bias as a row. -/
theorem V_v4_apply (c : Dev nD) (ch : Fin 128) :
    (V m c main_v4 : S1x128.Idx → EReal) (ix2 (0 : Fin 1) ch)
      = (m ((c : Thread nD τ).loc main_arg4) : S128.Idx → EReal) (ix1 ch) := by
  rw [V_v4]
  exact shapeCast_a_1a_apply _ _ (0 : Fin 1) ch

/-! ## The host's transposition after the region, and the result -/

/-- The result buffer after the run: the region's output array with the channels moved back. -/
theorem tail_eq (c : Dev nD) :
    (Pipeline.afterTail₀ cfgs (dats m) 0 (V0 m) [hostOps1] c main_v6 : S64x128x112x112.Idx → EReal)
      = transpose S64x128x112x112 [0, 3, 1, 2] (regionOf m c) transposes_S64x112x112x128_S64x128x112x112_0_3_1_2 := by
  unfold Pipeline.afterTail₀
  show StableHlo.after hostOps1 _ (Proc.devRef .tc main_v6) = _
  after_results
  refine congrArg (fun X => transpose S64x128x112x112 [0, 3, 1, 2] X transposes_S64x112x112x128_S64x128x112x112_0_3_1_2) ?_
  exact (Pipeline.withArrays_arr spec0 launch0.win.arr_inj c _ _ 5).trans (final5 m c)

/-- THE RESULT, as the one function of the argument arrays. -/
abbrev resultOf (c : Dev nD) : S64x128x112x112.Idx → EReal :=
  Gate.whole (m ((c : Thread nD τ).loc main_arg0)) (m ((c : Thread nD τ).loc main_arg1))
    (m ((c : Thread nD τ).loc main_arg2)) (m ((c : Thread nD τ).loc main_arg3)) (m ((c : Thread nD τ).loc main_arg4))

theorem result_eq (c : Dev nD) :
    (Pipeline.afterTail₀ cfgs (dats m) 0 (V0 m) [hostOps1] c main_v6 : S64x128x112x112.Idx → EReal) = resultOf m c := by
  rw [tail_eq]
  funext i
  obtain ⟨b, ch, h, w, rfl⟩ : ∃ (b : Fin 64) (ch : Fin 128) (h w : Fin 112), i = ix4 b ch h w :=
    ⟨i 0, i 1, i 2, i 3, eq_ix4 i⟩
  refine (transpose_apply _ _ _ (ix4 b ch h w) (ix4 b h w ch) fun a => match a with
    | ⟨0, _⟩ => rfl | ⟨1, _⟩ => rfl | ⟨2, _⟩ => rfl | ⟨3, _⟩ => rfl).trans ?_
  show Gate.scaled (fun c' h' w' => V m c main_v0 (ix4 b h' w' c')) (fun j c' => V m c main_v1 (ix2 c' j))
      (fun j => V m c main_v2 (ix2 (0 : Fin 1) j)) (fun c' j => V m c main_v3 (ix2 j c'))
      (fun c' => V m c main_v4 (ix2 (0 : Fin 1) c')) ch h w = _
  rw [show resultOf m c (ix4 b ch h w) = _ from Gate.whole_apply _ _ _ _ _ b ch h w]
  have e0 : (fun (c' : Fin 128) (h' w' : Fin 112) => (V m c main_v0 : S64x112x112x128.Idx → EReal) (ix4 b h' w' c'))
      = Gate.sampleOf (m ((c : Thread nD τ).loc main_arg0)) b :=
    funext fun c' => funext fun h' => funext fun w' => V_v0_apply m c b h' w' c'
  have e1 : (fun (j : Fin 8) (c' : Fin 128) => (V m c main_v1 : S128x8.Idx → EReal) (ix2 c' j))
      = fun j c' => (m ((c : Thread nD τ).loc main_arg1) : S8x128.Idx → EReal) (ix2 j c') :=
    funext fun j => funext fun c' => V_v1_apply m c c' j
  have e2 : (fun (j : Fin 8) => (V m c main_v2 : S1x8.Idx → EReal) (ix2 (0 : Fin 1) j))
      = fun j => (m ((c : Thread nD τ).loc main_arg2) : S8.Idx → EReal) (ix1 j) :=
    funext fun j => V_v2_apply m c j
  have e3 : (fun (c' : Fin 128) (j : Fin 8) => (V m c main_v3 : S8x128.Idx → EReal) (ix2 j c'))
      = fun c' j => (m ((c : Thread nD τ).loc main_arg3) : S128x8.Idx → EReal) (ix2 c' j) :=
    funext fun c' => funext fun j => V_v3_apply m c j c'
  have e4 : (fun (c' : Fin 128) => (V m c main_v4 : S1x128.Idx → EReal) (ix2 (0 : Fin 1) c'))
      = fun c' => (m ((c : Thread nD τ).loc main_arg4) : S128.Idx → EReal) (ix1 c') :=
    funext fun c' => V_v4_apply m c c'
  rw [e0, e1, e2, e3, e4]

/-! ## The run, read -/

/-- Every weakly fair execution of the idealized kernel program terminates with the result buffer at `Gate.whole` of
    the argument arrays, the arguments unchanged. -/
theorem run : θ_run defs (onTc (τ := τ) (main (F := Ideal))) ⟨m, fun _ => 0, ρ⟩ fun r => ∀ c : Dev nD,
      r.2.mem ((c : Thread nD τ).loc main_v6) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h c).2 main_v6 (Pipeline.mem_restRefs_of main_v6 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.KernelGate

end
-- ==== Proof.LibPoolSums.lean ====
/-
  Sums over the last two axes of a rank-4 array (a global average pool's sum over height and width).

  `sum_drop_last2`: in any commutative monoid, the sum over the indices of an [n0,n1,n2,n3] array whose first two
  coordinates are `(b, c)` — the indices a reduction over axes 2 and 3 sends to `(b, c)` — is the double sum over
  `h : Fin n2` and `w : Fin n3` of the entries at `(b, c, h, w)`.
  `hostReduceAdd_last2_apply`: so the host's float sum over those two axes, on the extended reals, is the initial
  value plus that double sum.
-/
import Idealize.ShloMosaic.PureOps.Ideal
import Idealize.ShloMosaic.PureOps.Reduce
import Idealize.ShloMosaic.Lib.ValueIdx

noncomputable section

open scoped BigOperators

namespace Cert.Lib.PoolSums

open Idealize.ShloMosaic Idealize.ShloMosaic.ValueIdx

/-- A host sum over the last two axes of a rank-4 array, at `(b, c)`: the indices that drop to `(b, c)` are exactly the
    `(b, c, h, w)`, so the sum over them is the double sum over the two reduced coordinates (in any commutative monoid). -/
theorem sum_drop_last2 {M : Type*} [AddCommMonoid M] {n0 n1 n2 n3 : Nat}
    (h' : (⟨4, ![n0, n1, n2, n3]⟩ : Shape).ReducesTo [2, 3] ⟨2, ![n0, n1]⟩)
    (x : (⟨4, ![n0, n1, n2, n3]⟩ : Shape).Idx → M) (b : Fin n0) (c : Fin n1) :
    ∑ i ∈ Finset.univ.filter (fun i => h'.drop i = ix2 b c), x i = ∑ h : Fin n2, ∑ w : Fin n3, x (ix4 b c h w) := by
  rw [← Fintype.sum_prod_type']
  refine Finset.sum_nbij' (fun i => ((⟨(i 2).val, (i 2).isLt⟩ : Fin n2), (⟨(i 3).val, (i 3).isLt⟩ : Fin n3)))
    (fun p => ix4 b c p.1 p.2) ?_ ?_ ?_ ?_ ?_
  · intro i _; exact Finset.mem_univ _
  · intro p _
    rw [Finset.mem_filter]
    refine ⟨Finset.mem_univ _, funext fun a => Fin.ext ?_⟩
    match a with
    | ⟨0, _⟩ => exact Shape.ReducesTo.drop_apply_val_of_eq h' _ 0 0 (by show (0 : Nat) < 2; decide) rfl
    | ⟨1, _⟩ => exact Shape.ReducesTo.drop_apply_val_of_eq h' _ 1 1 (by show (1 : Nat) < 2; decide) rfl
  · intro i hi
    rw [Finset.mem_filter] at hi
    have h0 : (i 0).val = b.val :=
      (Shape.ReducesTo.drop_apply_val_of_eq h' i 0 0 (by show (0 : Nat) < 2; decide) rfl).symm.trans (congrArg (fun f => (f 0).val) hi.2)
    have h1 : (i 1).val = c.val :=
      (Shape.ReducesTo.drop_apply_val_of_eq h' i 1 1 (by show (1 : Nat) < 2; decide) rfl).symm.trans (congrArg (fun f => (f 1).val) hi.2)
    funext a
    apply Fin.ext
    match a with
    | ⟨0, _⟩ => exact h0.symm
    | ⟨1, _⟩ => exact h1.symm
    | ⟨2, _⟩ => rfl
    | ⟨3, _⟩ => rfl
  · intro p _; rfl
  · intro i hi
    rw [Finset.mem_filter] at hi
    have h0 : (i 0).val = b.val :=
      (Shape.ReducesTo.drop_apply_val_of_eq h' i 0 0 (by show (0 : Nat) < 2; decide) rfl).symm.trans (congrArg (fun f => (f 0).val) hi.2)
    have h1 : (i 1).val = c.val :=
      (Shape.ReducesTo.drop_apply_val_of_eq h' i 1 1 (by show (1 : Nat) < 2; decide) rfl).symm.trans (congrArg (fun f => (f 1).val) hi.2)
    refine congrArg x (funext fun a => Fin.ext ?_)
    match a with
    | ⟨0, _⟩ => exact h0
    | ⟨1, _⟩ => exact h1
    | ⟨2, _⟩ => rfl
    | ⟨3, _⟩ => rfl

/-- So the host's float sum over the last two axes, read on the extended reals at `(b, c)`, is the initial value plus
    that double sum. -/
theorem hostReduceAdd_last2_apply {n0 n1 n2 n3 : Nat}
    (h' : (⟨4, ![n0, n1, n2, n3]⟩ : Shape).ReducesTo [2, 3] ⟨2, ![n0, n1]⟩)
    (x : (⟨4, ![n0, n1, n2, n3]⟩ : Shape).Idx → EReal) (init : EReal) (b : Fin n0) (c : Fin n1) :
    Ideal.hostReduceAdd h' x init (ix2 b c) = init + ∑ h : Fin n2, ∑ w : Fin n3, x (ix4 b c h w) := by
  unfold Ideal.hostReduceAdd
  rw [sum_drop_last2]

end Cert.Lib.PoolSums

end
-- ==== Proof.RefSide.lean ====
/-
  The reference, read index by index: its result at `(b, c, h, w)` is the squeeze-and-excitation of sample `b`
  (`Gate.scaled`) of the argument arrays.

  The generated read-at-an-index lemmas are chained one stage at a time: the channel means, the first layer, Mish,
  the second layer with the logistic function, the final product.  The one stage read by hand is the sum over the two
  spatial axes: the indices that drop to `(b, c)` are exactly the `(b, c, h, w)` (`LibPoolSums`).
-/
import proofs.«147125_g34720515621164_feedfinal_278_6_alg».proof.Proof.Gen.ReferenceIdeal.Read
import proofs.«147125_g34720515621164_feedfinal_278_6_alg».proof.Proof.Gate
import proofs.«147125_g34720515621164_feedfinal_278_6_alg».proof.Proof.Whole
import proofs.«147125_g34720515621164_feedfinal_278_6_alg».proof.Proof.LibPoolSums

noncomputable section

open scoped BigOperators

namespace Cert.RefGate

open Cert.ReferenceIdeal Cert.ReferenceIdeal.Gen Cert.ReferenceIdeal.Read Idealize.ShloMosaic Idealize.ShloMosaic.ValueIdx

/-- The sum over the indices of a [64,128,112,112] array that drop to `(b, c)` is the double sum over rows and
    columns of the entries at `(b, c, h, w)`. -/
theorem fiber_sum (h' : S64x128x112x112.ReducesTo [2, 3] S64x128) (x : S64x128x112x112.Idx → EReal)
    (b : Fin 64) (c : Fin 128) :
    ∑ i ∈ Finset.univ.filter (fun i => h'.drop i = ix2 b c), x i = ∑ h : Fin 112, ∑ w : Fin 112, x (ix4 b c h w) :=
  Cert.Lib.PoolSums.sum_drop_last2 h' x b c

variable (x0 : (⟨S64x128x112x112, .f32⟩ : BufTy).Contents (Elt Ideal)) (x1 : (⟨S8x128, .f32⟩ : BufTy).Contents (Elt Ideal))
  (x2 : (⟨S8, .f32⟩ : BufTy).Contents (Elt Ideal)) (x3 : (⟨S128x8, .f32⟩ : BufTy).Contents (Elt Ideal))
  (x4 : (⟨S128, .f32⟩ : BufTy).Contents (Elt Ideal))

/-- Sample `b` of the input, channel-major as the reference holds it. -/
abbrev sample (b : Fin 64) : Fin 128 → Fin 112 → Fin 112 → EReal := fun c h w => x0 (ix4 b c h w)
/-- The first layer's weights `W1[j, c]` and bias. -/
abbrev w1 : Fin 8 → Fin 128 → EReal := fun j c => x1 (ix2 j c)
abbrev bias1 : Fin 8 → EReal := fun j => x2 (ix1 j)
/-- The second layer's weights `W2[c, j]` and bias. -/
abbrev w2 : Fin 128 → Fin 8 → EReal := fun c j => x3 (ix2 c j)
abbrev bias2 : Fin 128 → EReal := fun c => x4 (ix1 c)

/-- The reference's mean of channel `c` of sample `b`: the sum from zero over both spatial axes, divided by 12544. -/
theorem mean_eq (b : Fin 64) (c : Fin 128) :
    val_main_v2 (F := Ideal) x0 (ix2 b c) = Gate.mean (sample x0 b) c := by
  rw [val_main_v2_apply, val_main_v1_apply, val_main_cst_0_apply]
  show Ideal.div (val_main_v0 (F := Ideal) x0 (ix2 b c)) (Ideal.ofBits .f32 0x46440000#32) = _
  rw [Gate.ofBits_12544, Gate.div_12544]
  unfold Gate.mean
  congr 1
  unfold val_main_v0
  show Ideal.hostReduceAdd _ x0 (Ideal.ofBits .f32 0x00000000#32) (ix2 b c) = _
  unfold Ideal.hostReduceAdd
  rw [Ideal.ofBits_zero_f32, zero_add, fiber_sum, Finset.sum_comm]

/-- The first layer. -/
theorem hidden_eq (b : Fin 64) (j : Fin 8) :
    val_main_v7 (F := Ideal) x0 x1 x2 (ix2 b j) = Gate.hidden (sample x0 b) (w1 x1) (bias1 x2) j := by
  rw [val_main_v7_apply, val_main_v4_apply, val_main_v6_apply, val_main_v5_apply]
  unfold Gate.hidden
  show (∑ k : Fin 128, _ * _) + _ = _
  congr 1
  · refine Finset.sum_congr rfl fun k _ => ?_
    have el : lidx_main_v4 (ix2 b j) k = ix2 b k :=
      funext fun a => Fin.ext (by match a with | ⟨0, _⟩ => rfl | ⟨1, _⟩ => rfl)
    have er : ridx_main_v4 (ix2 b j) k = ix2 k j :=
      funext fun a => Fin.ext (by match a with | ⟨0, _⟩ => rfl | ⟨1, _⟩ => rfl)
    have e3 : idx_main_v3 (ix2 k j) = ix2 j k :=
      funext fun a => Fin.ext (by match a with | ⟨0, _⟩ => rfl | ⟨1, _⟩ => rfl)
    rw [el, er, mean_eq, val_main_v3_apply, e3]
  · exact congrArg x2 (funext fun a => Fin.ext (by match a with | ⟨0, _⟩ => rfl))

/-- Mish of the first layer: the reference's guarded softplus is the stable one. -/
theorem mish_eq (b : Fin 64) (j : Fin 8) :
    val_main_v10 (F := Ideal) x0 x1 x2 (ix2 b j) = Gate.mish (Gate.hidden (sample x0 b) (w1 x1) (bias1 x2) j) := by
  rw [val_main_v10_apply, val_main_v9_apply, val_main_v8_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, hidden_eq]
  unfold Gate.mish
  simp only [Ideal.mulf_def, Ideal.hostUnary_tanh_def, Ideal.cmpf_def, Ideal.subf_def, Ideal.addf_def, Ideal.maximumf_def,
    Ideal.hostUnary_log1p_def, Ideal.hostUnary_exp_def, Ideal.hostNegf_def, Ideal.negf_def, Ideal.hostAbsf_def,
    Ideal.absf_def, Ideal.ofBits_def, Ideal.ofBits_zero_f32, Gate.softplus_guarded]

/-- The second layer before the logistic function. -/
theorem pre_eq (b : Fin 64) (c : Fin 128) :
    val_main_v15 (F := Ideal) x0 x1 x2 x3 x4 (ix2 b c)
      = (∑ j : Fin 8, Gate.mish (Gate.hidden (sample x0 b) (w1 x1) (bias1 x2) j) * w2 x3 c j) + bias2 x4 c := by
  rw [val_main_v15_apply, val_main_v12_apply, val_main_v14_apply, val_main_v13_apply]
  show (∑ k : Fin 8, _ * _) + _ = _
  congr 1
  · refine Finset.sum_congr rfl fun k _ => ?_
    have el : lidx_main_v12 (ix2 b c) k = ix2 b k :=
      funext fun a => Fin.ext (by match a with | ⟨0, _⟩ => rfl | ⟨1, _⟩ => rfl)
    have er : ridx_main_v12 (ix2 b c) k = ix2 k c :=
      funext fun a => Fin.ext (by match a with | ⟨0, _⟩ => rfl | ⟨1, _⟩ => rfl)
    have e11 : idx_main_v11 (ix2 k c) = ix2 c k :=
      funext fun a => Fin.ext (by match a with | ⟨0, _⟩ => rfl | ⟨1, _⟩ => rfl)
    rw [el, er, mish_eq, val_main_v11_apply, e11]
  · exact congrArg x4 (funext fun a => Fin.ext (by match a with | ⟨0, _⟩ => rfl))

/-- The gate: the reference's `1 / (1 + e^(-g))` is the logistic function. -/
theorem gate_eq (b : Fin 64) (c : Fin 128) :
    val_main_v21 (F := Ideal) x0 x1 x2 x3 x4 (ix2 b c)
      = Gate.gate (sample x0 b) (w1 x1) (bias1 x2) (w2 x3) (bias2 x4) c := by
  rw [val_main_v21_apply, val_main_v20_apply, val_main_cst_2_apply, val_main_v19_apply, val_main_v18_apply,
    val_main_cst_1_apply, val_main_v17_apply, val_main_v16_apply, pre_eq]
  unfold Gate.gate Ideal.logistic
  simp only [Ideal.hostDivf_def, Ideal.addf_def, Ideal.hostUnary_exp_def, Ideal.hostNegf_def, Ideal.negf_def,
    Ideal.ofBits_def, Gate.ofBits_one]

/-- THE REFERENCE'S RESULT at `(b, c, h, w)`. -/
theorem result_apply (b : Fin 64) (c : Fin 128) (h w : Fin 112) :
    val_main_v24 (F := Ideal) x0 x1 x2 x3 x4 (ix4 b c h w)
      = Gate.scaled (sample x0 b) (w1 x1) (bias1 x2) (w2 x3) (bias2 x4) c h w := by
  rw [val_main_v24_apply, val_main_v23_apply, val_main_v22_apply]
  have e : idx_main_v22 (idx_main_v23 (ix4 b c h w)) = ix2 b c :=
    funext fun a => Fin.ext (by match a with | ⟨0, _⟩ => rfl | ⟨1, _⟩ => rfl)
  rw [e, gate_eq]
  rfl

/-- THE REFERENCE'S RESULT ARRAY is `Gate.whole` of the argument arrays. -/
theorem whole_eq : val_main_v24 (F := Ideal) x0 x1 x2 x3 x4 = Gate.whole x0 x1 x2 x3 x4 := by
  funext i
  obtain ⟨b, c, h, w, rfl⟩ : ∃ (b : Fin 64) (c : Fin 128) (h w : Fin 112), i = ix4 b c h w :=
    ⟨i 0, i 1, i 2, i 3, eq_ix4 i⟩
  rw [result_apply]
  rfl

end Cert.RefGate

end
-- ==== Proof.lean ====
/-
  Squeeze-and-excitation on [64,128,112,112] with an 8-wide Mish bottleneck: a fused kernel against its jnp reference.

  Both programs, read on the extended reals, compute `Gate.whole` of the five arguments: each value `x[b, c, h, w]`
  times the gate of channel `c` of sample `b` — the logistic function of `W2 · mish (W1 · mean x[b] + b1) + b2`.

  * The kernel works channels-last.  The host moves the channels of `x` last, transposes the two weight matrices and
    reshapes the biases to rows; one grid point per sample sums the sample over rows, then over columns, multiplies by
    the named constant 1/12544, runs the two small matrix products from a zero accumulator, and multiplies the
    sample by the row of gates; the host moves the channels back.  (`KernelBody`: the body at an index;
    `KernelArray`: the 64 blocks cover the output array, and the host operations around the region.)
  * The reference sums over both spatial axes at once and divides by 12544; its softplus carries a guard against
    unordered values that never fires on a linear order; its logistic function is spelt `1 / (1 + e^(-g))`.
    (`RefSide`, over the generated read-at-an-index lemmas.)

  The two agree by laws that hold on all extended reals — a quotient by 12544 is the product with 1/12544, finite
  sums commute, `a - 0 = a`, `0 - a = -a` — so the precondition (finite inputs) is not used by the value claim.
-/
import proofs.«147125_g34720515621164_feedfinal_278_6_alg».proof.Defs
import proofs.«147125_g34720515621164_feedfinal_278_6_alg».proof.Proof.Gen.Kernel
import proofs.«147125_g34720515621164_feedfinal_278_6_alg».proof.Proof.Gen.Kernel.Frame
import proofs.«147125_g34720515621164_feedfinal_278_6_alg».proof.Proof.Gen.KernelIdeal
import proofs.«147125_g34720515621164_feedfinal_278_6_alg».proof.Proof.Gen.KernelIdeal.Frame
import proofs.«147125_g34720515621164_feedfinal_278_6_alg».proof.Proof.Gen.ReferenceIdeal
import proofs.«147125_g34720515621164_feedfinal_278_6_alg».proof.Proof.Gen.ReferenceIdeal.Run
import proofs.«147125_g34720515621164_feedfinal_278_6_alg».proof.Proof.Gen.ReferenceIdeal.Read
import proofs.«147125_g34720515621164_feedfinal_278_6_alg».proof.Proof.Gen.Pre_finite_inputs
import proofs.«147125_g34720515621164_feedfinal_278_6_alg».proof.Proof.KernelArray
import proofs.«147125_g34720515621164_feedfinal_278_6_alg».proof.Proof.RefSide
import Idealize.ShloMosaic.Adequacy
import Idealize.ShloMosaic.Init

noncomputable section

namespace Cert.Proof

open Idealize.ShloMosaic Idealize.SL.Sem

/-- The word-level kernel runs and leaves its arguments unchanged (the generated frame). -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a line of host operations: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal `f32(1/12544)` is named the rational 1/12544. -/
theorem preserves : Cert.preserves_Kernel_KernelIdeal :=
  IdealRules.named_const.statement Cert.KernelIdeal.κ "inv_12544" .f32 0x38A72F05#32 ((1 / 12544 : ℝ) : EReal) rfl

/-- Both idealized programs end with `Gate.whole` of the (agreeing) arguments in their result buffers. -/
theorem algebraic : Cert.algebraic_KernelIdeal_ReferenceIdeal := by
  intro m ρ m' ρ' _ hagree
  refine ⟨fun c => Cert.KernelGate.resultOf m c, Cert.KernelGate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.RefGate.whole_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
